-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x64 .f32) (main_arg7 : FVec F S64 .f32) (main_arg8 : FVec F S64x32 .f32) (main_arg9 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S2000x32 : Shape := ⟨2, ![2000, 32]⟩
abbrev S1700000x32 : Shape := ⟨2, ![1700000, 32]⟩
abbrev S1x32 : Shape := ⟨2, ![1, 32]⟩

abbrev nBuf : Space → Nat
  | .hbm => 126
  | .vmem => 40
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x32, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x32, .f32⟩
  | .hbm, ⟨117, _⟩ => ⟨S1700000x1, .f32⟩
  | .hbm, ⟨118, _⟩ => ⟨S1700000x32, .f32⟩
  | .hbm, ⟨119, _⟩ => ⟨S1700000x32, .f32⟩
  | .hbm, ⟨120, _⟩ => ⟨S_, .f32⟩
  | .hbm, ⟨121, _⟩ => ⟨S100000x32, .f32⟩
  | .hbm, ⟨122, _⟩ => ⟨S1700000x1, .i32⟩
  | .hbm, ⟨123, _⟩ => ⟨S100000x32, .f32⟩
  | .hbm, ⟨124, _⟩ => ⟨S1x32, .f32⟩
  | .hbm, ⟨125, _⟩ => ⟨S100000x32, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S64x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S1x32, .f32⟩
  | .local _ .vmem, ⟨38, _⟩ => ⟨S2000x32, .f32⟩
  | .local _ .vmem, ⟨39, _⟩ => ⟨S2000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S100000x32.size a
  hwx7_2 : ∀ i : grid7.Coords, EltTy.bits .f32 = 32 ∨ (Rect.block (s := S100000x32) S2000x32.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S2000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S2000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 139
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x32, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x256, .f32⟩

abbrev hbmTy0_1 (i : Nat) : BufTy := match i % 128 with
  | 0 => ⟨S1700000x32, .f32⟩
  | 1 => ⟨S1700000x1, .f32⟩
  | 2 => ⟨S1700000x32, .f32⟩
  | 3 => ⟨S1700000x32, .f32⟩
  | 4 => ⟨S_, .f32⟩
  | 5 => ⟨S100000x32, .f32⟩
  | 6 => ⟨S1700000x1, .i32⟩
  | 7 => ⟨S100000x32, .f32⟩
  | 8 => ⟨S1x32, .f32⟩
  | 9 => ⟨S100000x32, .f32⟩
  | 10 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«173428_j39960375722314_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«173428_j39960375722314_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«173428_j39960375722314_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«173428_j39960375722314_1_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.Spec.lean ====
/-
  A four-layer graph convolution over 100000 nodes and 1600000 edges, as one function of its argument arrays.

  The edge table has two rows: the source and the destination node of every edge. Every node also gets one edge
  to itself, so the layer works on 1700000 edges: `srcs` and `dsts`. The weight of edge `j` is
  `dinv (src j) * dinv (dst j)`, where `dinv n` is the reciprocal square root of the number of edges that end at
  node `n` when that number is positive, and zero otherwise: `coef`.

  One aggregation step takes a table `h` of node features, reads for every edge the row of its source, scales the
  row by the edge's weight, and adds it into the row of the edge's destination, starting from a table of zeros:
  `agg128`, `agg64`, `agg32` for the three widths that occur.

  One layer is a product with a weight matrix, an aggregation step, a bias added to every row, and the positive
  part (the last layer has no positive part). `net` composes the four layers, 256 -> 128 -> 128 -> 64 -> 32.

  The dense parts are read as whole-array functions on the extended reals: the product is the plain matrix
  product `mm`, bias and positive part are `relu (addRow . .)`, the last bias is `addRow`.
-/
import proofs.«173428_j39960375722314_1_alg».proof.Proof.Gen.ReferenceIdeal
import proofs.«173428_j39960375722314_1_alg».proof.Proof.LibProductRows
import Idealize.ShloMosaic.PureOps.Ideal

noncomputable section

namespace Cert.Gcn

open Idealize.ShloMosaic Cert.ReferenceIdeal Cert.ReferenceIdeal.Gen
open Cert.Lib.Dense Cert.Lib.RowLayers Cert.Lib.ProductRows

variable {F : FTy → Type} [FloatOps F]

/-! ## The edges -/

/-- The source node of every edge: row 0 of the edge table, then every node once. -/
def srcs (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every edge: row 1 of the edge table, then every node once. -/
def dsts (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: `s + 100000` where `s < 0`, else `s`. -/
def wrapIdx (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- The number of edges that end at each node. -/
def degree (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dsts e)) (broadcastInDim S1700000 ![] bcast_S_S1700000 (constant S_ .f32 0x3F800000#32))

/-- `1 / sqrt (degree n)` where the degree is positive, zero elsewhere. -/
def dinv (e : IVec S2x1600000 32) : FVec F S100000 .f32 :=
  select (cmpf .ogt (degree (F := F) e) (broadcastInDim S100000 ![] bcast_S_S100000 (constant S_ .f32 0x00000000#32))) (Host.rsqrt (degree (F := F) e)) (broadcastInDim S100000 ![] bcast_S_S100000 (id (constant S_ .f32 0x00000000#32)))

/-- The weight of every edge: `dinv` at its source times `dinv` at its destination. -/
def coef (e : IVec S2x1600000 32) : FVec F S1700000 .f32 :=
  mulf (Host.gather gather_S100000_S1700000x1_S1700000_n_0_n_n_0_1_1 (dinv (F := F) e) (broadcastInDim S1700000x1 ![0] bcast_S1700000_S1700000x1_0 (wrapIdx (srcs e)))) (Host.gather gather_S100000_S1700000x1_S1700000_n_0_n_n_0_1_1 (dinv (F := F) e) (broadcastInDim S1700000x1 ![0] bcast_S1700000_S1700000x1_0 (wrapIdx (dsts e))))

/-! ## One aggregation step, at the three widths -/

/-- Rows of `h` gathered by source, scaled by the edge's weight, added into the destination's row (128 features). -/
def agg128 (h : FVec F S100000x128 .f32) (s d : IVec S1700000 32) (w : FVec F S1700000 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIdx s))) (broadcastInDim S1700000x128 ![0, 1] bcast_S1700000x1_S1700000x128_0_1 (broadcastInDim S1700000x1 ![0] bcast_S1700000_S1700000x1_0 w)))

/-- The same for 64 features. -/
def agg64 (h : FVec F S100000x64 .f32) (s d : IVec S1700000 32) (w : FVec F S1700000 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapIdx s))) (broadcastInDim S1700000x64 ![0, 1] bcast_S1700000x1_S1700000x64_0_1 (broadcastInDim S1700000x1 ![0] bcast_S1700000_S1700000x1_0 w)))

/-- The same for 32 features. -/
def agg32 (h : FVec F S100000x32 .f32) (s d : IVec S1700000 32) (w : FVec F S1700000 .f32) : FVec F S100000x32 .f32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 d) (mulf (Host.gather gather_S100000x32_S1700000x1_S1700000x32_1_0_n_n_0_1_132 h (broadcastInDim S1700000x1 ![0] bcast_S1700000_S1700000x1_0 (wrapIdx s))) (broadcastInDim S1700000x32 ![0, 1] bcast_S1700000x1_S1700000x32_0_1 (broadcastInDim S1700000x1 ![0] bcast_S1700000_S1700000x1_0 w)))

/-! ## The dense parts, in the host's spelling -/

def dense1 (x : FVec F S100000x256 .f32) (w : FVec F S256x128 .f32) : FVec F S100000x128 .f32 :=
  Host.dotGeneral dot_S100000x256_S256x128_S100000x128_1_0_0_1_n_n none x w
def dense2 (x : FVec F S100000x128 .f32) (w : FVec F S128x128 .f32) : FVec F S100000x128 .f32 :=
  Host.dotGeneral dot_S100000x128_S128x128_S100000x128_1_0_0_1_n_n none x w
def dense3 (x : FVec F S100000x128 .f32) (w : FVec F S128x64 .f32) : FVec F S100000x64 .f32 :=
  Host.dotGeneral dot_S100000x128_S128x64_S100000x64_1_0_0_1_n_n none x w
def dense4 (x : FVec F S100000x64 .f32) (w : FVec F S64x32 .f32) : FVec F S100000x32 .f32 :=
  Host.dotGeneral dot_S100000x64_S64x32_S100000x32_1_0_0_1_n_n none x w

/-- A bias added to every row, then the positive part (128 features). -/
def act128 (a : FVec F S100000x128 .f32) (b : FVec F S128 .f32) : FVec F S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))
/-- The same for 64 features. -/
def act64 (a : FVec F S100000x64 .f32) (b : FVec F S64 .f32) : FVec F S100000x64 .f32 :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))
/-- A bias added to every row (32 features; the last layer keeps negative values). -/
def bias32 (a : FVec F S100000x32 .f32) (b : FVec F S32 .f32) : FVec F S100000x32 .f32 :=
  addf a (broadcastInDim S100000x32 ![0, 1] bcast_S1x32_S100000x32_0_1 (broadcastInDim S1x32 ![1] bcast_S32_S1x32_1 b))

/-! ## The network -/

def layer1 (x : FVec F S100000x256 .f32) (e : IVec S2x1600000 32) (w1 : FVec F S256x128 .f32) (b1 : FVec F S128 .f32) : FVec F S100000x128 .f32 :=
  act128 (agg128 (dense1 x w1) (srcs e) (dsts e) (coef (F := F) e)) b1
def layer2 (h : FVec F S100000x128 .f32) (e : IVec S2x1600000 32) (w2 : FVec F S128x128 .f32) (b2 : FVec F S128 .f32) : FVec F S100000x128 .f32 :=
  act128 (agg128 (dense2 h w2) (srcs e) (dsts e) (coef (F := F) e)) b2
def layer3 (h : FVec F S100000x128 .f32) (e : IVec S2x1600000 32) (w3 : FVec F S128x64 .f32) (b3 : FVec F S64 .f32) : FVec F S100000x64 .f32 :=
  act64 (agg64 (dense3 h w3) (srcs e) (dsts e) (coef (F := F) e)) b3
def layer4 (h : FVec F S100000x64 .f32) (e : IVec S2x1600000 32) (w4 : FVec F S64x32 .f32) (b4 : FVec F S32 .f32) : FVec F S100000x32 .f32 :=
  bias32 (agg32 (dense4 h w4) (srcs e) (dsts e) (coef (F := F) e)) b4

/-- The four layers composed. -/
def net (x : FVec F S100000x256 .f32) (e : IVec S2x1600000 32)
    (w1 : FVec F S256x128 .f32) (b1 : FVec F S128 .f32) (w2 : FVec F S128x128 .f32) (b2 : FVec F S128 .f32)
    (w3 : FVec F S128x64 .f32) (b3 : FVec F S64 .f32) (w4 : FVec F S64x32 .f32) (b4 : FVec F S32 .f32) : FVec F S100000x32 .f32 :=
  layer4 (layer3 (layer2 (layer1 x e w1 b1) e w2 b2) e w3 b3) e w4 b4

/-! ## The dense parts on the extended reals -/

theorem dense1_eq (x : FVec Ideal S100000x256 .f32) (w : FVec Ideal S256x128 .f32) : dense1 x w = mm x w := host_mm _ rfl x w
theorem dense2_eq (x : FVec Ideal S100000x128 .f32) (w : FVec Ideal S128x128 .f32) : dense2 x w = mm x w := host_mm _ rfl x w
theorem dense3_eq (x : FVec Ideal S100000x128 .f32) (w : FVec Ideal S128x64 .f32) : dense3 x w = mm x w := host_mm _ rfl x w
theorem dense4_eq (x : FVec Ideal S100000x64 .f32) (w : FVec Ideal S64x32 .f32) : dense4 x w = mm x w := host_mm _ rfl x w

theorem act128_eq (a : FVec Ideal S100000x128 .f32) (b : FVec Ideal S128 .f32) : act128 a b = relu (addRow a b) :=
  host_addRow_relu a b _ _ _ _
theorem act64_eq (a : FVec Ideal S100000x64 .f32) (b : FVec Ideal S64 .f32) : act64 a b = relu (addRow a b) :=
  host_addRow_relu a b _ _ _ _
theorem bias32_eq (a : FVec Ideal S100000x32 .f32) (b : FVec Ideal S32 .f32) : bias32 a b = addRow a b :=
  host_addRow a b _ _

end Cert.Gcn

end
-- ==== Proof.RefValue.lean ====
/-
  The reference program's result is the network of its argument arrays.

  The reference's run ends with its result buffer at the composed term of its 129 host operations. That term is,
  operation for operation, the four layers of `net`: the edge lists and weights, and per layer a product, the
  aggregation, the bias broadcast in two steps and added, and the maximum with a broadcast zero.
-/
import proofs.«173428_j39960375722314_1_alg».proof.Proof.RefRun
import proofs.«173428_j39960375722314_1_alg».proof.Proof.Spec

set_option maxRecDepth 16384

noncomputable section

namespace Cert.Gcn

open Idealize.ShloMosaic Idealize.ShloMosaic.TcCoe Idealize.SL.Sem

theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v100 (F := Ideal) m c
      = net (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  unfold Cert.ReferenceIdeal.ValueP.res_main_v100
  rfl

end Cert.Gcn

end
-- ==== Proof.KRun.lean ====
/-
  The run of the eight-call program with its result named.

  The program is fifteen segments: stretches of host operations and eight pipelined calls. The contents of every
  buffer at each segment boundary are a fold from the launch memory; the last boundary's contents are `W15`. Every
  weakly fair execution terminates, nothing faults, and every buffer that outlives the calls — the result array
  among them — ends at its `W15` contents, the argument arrays as launched.
-/
import proofs.«173428_j39960375722314_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as
    launched: the segments' run, the last thread state read against the final memory. -/
theorem run_named : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Whole

end
-- ==== Proof.KMat.lean ====
/-
  The four matrix-product calls, each read whole.

  Each call runs over 50 grid points. Point `t` loads rows `2000 t … 2000 t + 1999` of the left array and the whole
  weight, narrows both to a shorter float format, multiplies them into a zero accumulator, and writes the 2000 rows of
  the result back. On the extended reals narrowing is the identity, an entry of a product depends on one row of the
  left array only, and the fifty blocks tile the result: after the call the result array is the plain product `mm` of
  the two arrays the call was entered with.
-/
import proofs.«173428_j39960375722314_1_alg».proof.Proof.Gen.KernelIdeal.Frame
import proofs.«173428_j39960375722314_1_alg».proof.Proof.LibProductRows
import Idealize.ShloMosaic.Lib.Pipeline.Value
import Idealize.ShloMosaic.Lib.ValueIdx

set_option maxRecDepth 16384

noncomputable section

open scoped BigOperators

namespace Cert.KernelIdeal.Whole.Mat

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lib.BiasDot Cert.Lib.Dense Cert.Lib.RowLayers Cert.Lib.ProductRows

variable (V : (c : Dev nD) → (b : Ref sig .tc) → Buf (Elt Ideal) ((c : Thread nD τ).loc b))

theorem hz : (![0, 0] : Fin 2 → Nat) = fun _ => 0 := funext fun a => by fin_cases a <;> rfl

/-! ## Call 0: a block of 2000 rows times the 256 × 128 weight -/

/-- The body's value on a block: entry `j` is the whole product's entry `i` when the block's row `j 0` is the
    array's row `i 0` and the weight's column `j 1` is column `i 1` (narrowing to a shorter float is the identity). -/
theorem pay0_block (x0 : FVec Ideal S2000x256 .f32) (x1 : FVec Ideal S256x128 .f32)
    (A : FVec Ideal S100000x256 .f32) (W : FVec Ideal S256x128 .f32) (j : S2000x128.Idx) (i : S100000x128.Idx)
    (h0 : ∀ k : Fin 256, x0 (ix2 (j 0) k) = A (ix2 (i 0) k)) (h1 : ∀ k : Fin 256, x1 (ix2 k (j 1)) = W (ix2 k (i 1))) :
    k0_pay1 (F := Ideal) x0 x1 j = mm A W i := by
  have e : k0_pay1 (F := Ideal) x0 x1 = mm x0 x1 := by
    unfold k0_pay1
    exact narrowMatmul_eq_mm _ rfl x0 x1 _ _
  rw [e]
  exact mm_block x0 x1 A W j i h0 h1

/-- The grid is one axis of 50 points; point `t` works on rows `2000 t … 2000 t + 1999`, all columns. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row `r` of the result is written by point `r / 2000`: the fifty blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨e0, e1, e2, e3, e4, e5⟩ := idx0 ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    omega

/-- What point `t` writes back is block `t` of the product of the two arrays as the call finds them. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx0 t
  funext j
  show k0_pay1 (F := Ideal) (iblk0 V c 0 t) (iblk0 V c 1 t) j = mm (V c main_arg0) (V c main_arg2) (((cfg0.win 2).blk t).view.emb j)
  refine pay0_block (iblk0 V c 0 t) (iblk0 V c 1 t) (V c main_arg0) (V c main_arg2) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- After the call its result array holds the product of the two arrays it was entered with. -/
theorem final0 (c : Dev nD) : (dat0 V c).arrAt 2 cfg0.N = mm (V c main_arg0) (V c main_arg2) :=
  (dat0 V c).arrAt_eq_of_cover 2 (mm (V c main_arg0) (V c main_arg2)) (fun t _ => flushed0 V c t) cover0

/-! ## Call 2: a block of 2000 rows times the 128 × 128 weight -/

/-- The body's value on a block: entry `j` is the whole product's entry `i` when the block's row `j 0` is the
    array's row `i 0` and the weight's column `j 1` is column `i 1` (narrowing to a shorter float is the identity). -/
theorem pay2_block (x0 : FVec Ideal S2000x128 .f32) (x1 : FVec Ideal S128x128 .f32)
    (A : FVec Ideal S100000x128 .f32) (W : FVec Ideal S128x128 .f32) (j : S2000x128.Idx) (i : S100000x128.Idx)
    (h0 : ∀ k : Fin 128, x0 (ix2 (j 0) k) = A (ix2 (i 0) k)) (h1 : ∀ k : Fin 128, x1 (ix2 k (j 1)) = W (ix2 k (i 1))) :
    k2_pay1 (F := Ideal) x0 x1 j = mm A W i := by
  have e : k2_pay1 (F := Ideal) x0 x1 = mm x0 x1 := by
    unfold k2_pay1
    rw [shapeCast_self]
    exact narrowMatmul_eq_mm _ rfl x0 x1 _ _
  rw [e]
  exact mm_block x0 x1 A W j i h0 h1

/-- The grid is one axis of 50 points; point `t` works on rows `2000 t … 2000 t + 1999`, all columns. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Row `r` of the result is written by point `r / 2000`: the fifty blocks tile the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨e0, e1, e2, e3, e4, e5⟩ := idx2 ⟨(i 0).val / 2000, ht⟩
  have e4' : win2_2.index ⟨(i 0).val / 2000, ht⟩ (0 : Fin 2) = (i 0).val / 2000 := e4
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    omega

/-- What point `t` writes back is block `t` of the product of the two arrays as the call finds them. -/
theorem flushed2 (c : Dev nD) (t : Fin cfg2.N) :
    (dat2 V c).flushed 2 t = ((cfg2.win 2).blk t).view.read (Elt Ideal) (mm (V c main_v45) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx2 t
  funext j
  show k2_pay1 (F := Ideal) (iblk2 V c 0 t) (iblk2 V c 1 t) j = mm (V c main_v45) (V c main_arg4) (((cfg2.win 2).blk t).view.emb j)
  refine pay2_block (iblk2 V c 0 t) (iblk2 V c 1 t) (V c main_v45) (V c main_arg4) j (((cfg2.win 2).blk t).view.emb j) (fun k => ?_) (fun k => ?_)
  · show V c main_v45 (((cfg2.win 0).blk t).view.emb (ix2 (j 0) k)) = V c main_v45 (ix2 ((((cfg2.win 2).blk t).view.emb j) 0) k)
    refine congrArg (V c main_v45) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg4 (((cfg2.win 1).blk t).view.emb (ix2 k (j 1))) = V c main_arg4 (ix2 k ((((cfg2.win 2).blk t).view.emb j) 1))
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- After the call its result array holds the product of the two arrays it was entered with. -/
theorem final2 (c : Dev nD) : (dat2 V c).arrAt 2 cfg2.N = mm (V c main_v45) (V c main_arg4) :=
  (dat2 V c).arrAt_eq_of_cover 2 (mm (V c main_v45) (V c main_arg4)) (fun t _ => flushed2 V c t) cover2

/-! ## Call 4: a block of 2000 rows times the 128 × 64 weight -/

/-- The body's value on a block: entry `j` is the whole product's entry `i` when the block's row `j 0` is the
    array's row `i 0` and the weight's column `j 1` is column `i 1` (narrowing to a shorter float is the identity). -/
theorem pay4_block (x0 : FVec Ideal S2000x128 .f32) (x1 : FVec Ideal S128x64 .f32)
    (A : FVec Ideal S100000x128 .f32) (W : FVec Ideal S128x64 .f32) (j : S2000x64.Idx) (i : S100000x64.Idx)
    (h0 : ∀ k : Fin 128, x0 (ix2 (j 0) k) = A (ix2 (i 0) k)) (h1 : ∀ k : Fin 128, x1 (ix2 k (j 1)) = W (ix2 k (i 1))) :
    k4_pay1 (F := Ideal) x0 x1 j = mm A W i := by
  have e : k4_pay1 (F := Ideal) x0 x1 = mm x0 x1 := by
    unfold k4_pay1
    rw [shapeCast_self]
    exact narrowMatmul_eq_mm _ rfl x0 x1 _ _
  rw [e]
  exact mm_block x0 x1 A W j i h0 h1

/-- The grid is one axis of 50 points; point `t` works on rows `2000 t … 2000 t + 1999`, all columns. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- An index of the result array is in point `t`'s block iff each coordinate is in the block's range on its axis. -/
theorem mem_blk4 (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v62).slice (win4_2.rect t)).set ↔ _
  rw [View.set_slice_whole, Rect.mem_set_unit]
  exact Iff.rfl

/-- Row `r` of the result is written by point `r / 2000`: the fifty blocks tile the array. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  have ht : (i 0).val / 2000 < cfg4.N := by rw [hN]; omega
  obtain ⟨e0, e1, e2, e3, e4, e5⟩ := idx4 ⟨(i 0).val / 2000, ht⟩
  have e4' : win4_2.index ⟨(i 0).val / 2000, ht⟩ (0 : Fin 2) = (i 0).val / 2000 := e4
  refine ⟨⟨(i 0).val / 2000, ht⟩, flush4_2 _, ?_⟩
  rw [mem_blk4]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    omega
  | ⟨1, _⟩ =>
    show win4_2.index ⟨(i 0).val / 2000, ht⟩ (1 : Fin 2) * 64 ≤ (i 1).val ∧ (i 1).val < win4_2.index ⟨(i 0).val / 2000, ht⟩ (1 : Fin 2) * 64 + 64
    omega

/-- What point `t` writes back is block `t` of the product of the two arrays as the call finds them. -/
theorem flushed4 (c : Dev nD) (t : Fin cfg4.N) :
    (dat4 V c).flushed 2 t = ((cfg4.win 2).blk t).view.read (Elt Ideal) (mm (V c main_v61) (V c main_arg6)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  obtain ⟨e0, e1, e2, e3, e4, e5⟩ := idx4 t
  funext j
  show k4_pay1 (F := Ideal) (iblk4 V c 0 t) (iblk4 V c 1 t) j = mm (V c main_v61) (V c main_arg6) (((cfg4.win 2).blk t).view.emb j)
  refine pay4_block (iblk4 V c 0 t) (iblk4 V c 1 t) (V c main_v61) (V c main_arg6) j (((cfg4.win 2).blk t).view.emb j) (fun k => ?_) (fun k => ?_)
  · show V c main_v61 (((cfg4.win 0).blk t).view.emb (ix2 (j 0) k)) = V c main_v61 (ix2 ((((cfg4.win 2).blk t).view.emb j) 0) k)
    refine congrArg (V c main_v61) ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · show V c main_arg6 (((cfg4.win 1).blk t).view.emb (ix2 k (j 1))) = V c main_arg6 (ix2 k ((((cfg4.win 2).blk t).view.emb j) 1))
    refine congrArg (V c main_arg6) ?_
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- After the call its result array holds the product of the two arrays it was entered with. -/
theorem final4 (c : Dev nD) : (dat4 V c).arrAt 2 cfg4.N = mm (V c main_v61) (V c main_arg6) :=
  (dat4 V c).arrAt_eq_of_cover 2 (mm (V c main_v61) (V c main_arg6)) (fun t _ => flushed4 V c t) cover4

/-! ## Call 6: a block of 2000 rows times the 64 × 32 weight -/

/-- The body's value on a block: entry `j` is the whole product's entry `i` when the block's row `j 0` is the
    array's row `i 0` and the weight's column `j 1` is column `i 1` (narrowing to a shorter float is the identity). -/
theorem pay6_block (x0 : FVec Ideal S2000x64 .f32) (x1 : FVec Ideal S64x32 .f32)
    (A : FVec Ideal S100000x64 .f32) (W : FVec Ideal S64x32 .f32) (j : S2000x32.Idx) (i : S100000x32.Idx)
    (h0 : ∀ k : Fin 64, x0 (ix2 (j 0) k) = A (ix2 (i 0) k)) (h1 : ∀ k : Fin 64, x1 (ix2 k (j 1)) = W (ix2 k (i 1))) :
    k6_pay1 (F := Ideal) x0 x1 j = mm A W i := by
  have e : k6_pay1 (F := Ideal) x0 x1 = mm x0 x1 := by
    unfold k6_pay1
    rw [shapeCast_self]
    exact narrowMatmul_eq_mm _ rfl x0 x1 _ _
  rw [e]
  exact mm_block x0 x1 A W j i h0 h1

/-- The grid is one axis of 50 points; point `t` works on rows `2000 t … 2000 t + 1999`, all columns. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- An index of the result array is in point `t`'s block iff each coordinate is in the block's range on its axis. -/
theorem mem_blk6 (t : Fin cfg6.N) (i : S100000x32.Idx) :
    i ∈ ((cfg6.win 2).blk t).view.set ↔ ∀ a : Fin 2, win6_2.index t a * S2000x32.size a ≤ (i a).val ∧ (i a).val < win6_2.index t a * S2000x32.size a + S2000x32.size a := by
  show i ∈ ((View.whole main_v78).slice (win6_2.rect t)).set ↔ _
  rw [View.set_slice_whole, Rect.mem_set_unit]
  exact Iff.rfl

/-- Row `r` of the result is written by point `r / 2000`: the fifty blocks tile the array. -/
theorem cover6 (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have hN : cfg6.N = 50 := N_6
  have ht : (i 0).val / 2000 < cfg6.N := by rw [hN]; omega
  obtain ⟨e0, e1, e2, e3, e4, e5⟩ := idx6 ⟨(i 0).val / 2000, ht⟩
  have e4' : win6_2.index ⟨(i 0).val / 2000, ht⟩ (0 : Fin 2) = (i 0).val / 2000 := e4
  refine ⟨⟨(i 0).val / 2000, ht⟩, flush6_2 _, ?_⟩
  rw [mem_blk6]
  intro a
  match a with
  | ⟨0, _⟩ =>
    show win6_2.index ⟨(i 0).val / 2000, ht⟩ (0 : Fin 2) * 2000 ≤ (i 0).val ∧ (i 0).val < win6_2.index ⟨(i 0).val / 2000, ht⟩ (0 : Fin 2) * 2000 + 2000
    omega
  | ⟨1, _⟩ =>
    show win6_2.index ⟨(i 0).val / 2000, ht⟩ (1 : Fin 2) * 32 ≤ (i 1).val ∧ (i 1).val < win6_2.index ⟨(i 0).val / 2000, ht⟩ (1 : Fin 2) * 32 + 32
    omega

/-- What point `t` writes back is block `t` of the product of the two arrays as the call finds them. -/
theorem flushed6 (c : Dev nD) (t : Fin cfg6.N) :
    (dat6 V c).flushed 2 t = ((cfg6.win 2).blk t).view.read (Elt Ideal) (mm (V c main_v77) (V c main_arg8)) := by
  show (cfg6.win 2).cut (grid6.coords t) ((dat6 V c).after 2 t) = _
  rw [after6_2]
  unfold out6_2
  rw [View.canon_unit_zero hz]
  simp only [View.ld_unit_zero (S := S2000x64) hz, View.ld_unit_zero (S := S64x32) hz]
  obtain ⟨e0, e1, e2, e3, e4, e5⟩ := idx6 t
  funext j
  show k6_pay1 (F := Ideal) (iblk6 V c 0 t) (iblk6 V c 1 t) j = mm (V c main_v77) (V c main_arg8) (((cfg6.win 2).blk t).view.emb j)
  refine pay6_block (iblk6 V c 0 t) (iblk6 V c 1 t) (V c main_v77) (V c main_arg8) j (((cfg6.win 2).blk t).view.emb j) (fun k => ?_) (fun k => ?_)
  · show V c main_v77 (((cfg6.win 0).blk t).view.emb (ix2 (j 0) k)) = V c main_v77 (ix2 ((((cfg6.win 2).blk t).view.emb j) 0) k)
    refine congrArg (V c main_v77) ?_
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 64 + 1 * k.val = k.val; omega
  · show V c main_arg8 (((cfg6.win 1).blk t).view.emb (ix2 k (j 1))) = V c main_arg8 (ix2 k ((((cfg6.win 2).blk t).view.emb j) 1))
    refine congrArg (V c main_arg8) ?_
    funext a; apply Fin.ext
    match a with
    | ⟨0, _⟩ => show win6_1.index t (0 : Fin 2) * 64 + 1 * k.val = k.val; omega
    | ⟨1, _⟩ => show win6_1.index t (1 : Fin 2) * 32 + 1 * (j 1).val = win6_2.index t (1 : Fin 2) * 32 + 1 * (j 1).val; omega

/-- After the call its result array holds the product of the two arrays it was entered with. -/
theorem final6 (c : Dev nD) : (dat6 V c).arrAt 2 cfg6.N = mm (V c main_v77) (V c main_arg8) :=
  (dat6 V c).arrAt_eq_of_cover 2 (mm (V c main_v77) (V c main_arg8)) (fun t _ => flushed6 V c t) cover6

end Cert.KernelIdeal.Whole.Mat

end
-- ==== Proof.KAct.lean ====
/-
  The four bias calls, each read whole.

  Each call runs over 50 grid points. Point `t` loads rows `2000 t … 2000 t + 1999` of the aggregated features and the
  1 × N bias row, repeats the row down the 2000 rows, adds, and (in the first three calls) takes the larger of the sum
  and zero; it writes the 2000 rows back. Every entry depends on one entry of the features and one of the row, and the
  fifty blocks tile the result: after the call the result array is `relu (addRow a b)` (for the last call `addRow a b`)
  of the array `a` and the row `b`, read as a vector, that the call was entered with.
-/
import proofs.«173428_j39960375722314_1_alg».proof.Proof.Gen.KernelIdeal.Frame
import proofs.«173428_j39960375722314_1_alg».proof.Proof.LibProductRows
import Idealize.ShloMosaic.Lib.Pipeline.Value
import Idealize.ShloMosaic.Lib.ValueIdx

set_option maxRecDepth 16384

noncomputable section

open scoped BigOperators

namespace Cert.KernelIdeal.Whole.Act

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lib.BiasDot Cert.Lib.Dense Cert.Lib.RowLayers Cert.Lib.ProductRows

variable (V : (c : Dev nD) → (b : Ref sig .tc) → Buf (Elt Ideal) ((c : Thread nD τ).loc b))

theorem hz : (![0, 0] : Fin 2 → Nat) = fun _ => 0 := funext fun a => by fin_cases a <;> rfl

/-! ## Call 1: the bias row added to a block of 2000 rows, then the positive part -/

/-- The body's value on a block: entry `j` is the whole array's entry `i` when the block's entry `j` is the array's
    entry `i` and the row's column `j 1` is column `i 1`. -/
theorem pay1_block (x0 : FVec Ideal S2000x128 .f32) (x1 : FVec Ideal S1x128 .f32)
    (A : FVec Ideal S100000x128 .f32) (R : FVec Ideal S1x128 .f32) (j : S2000x128.Idx) (i : S100000x128.Idx)
    (h0 : x0 j = A i) (h1 : x1 (ix2 (0 : Fin 1) (j 1)) = R (ix2 (0 : Fin 1) (i 1))) :
    k1_pay1 (F := Ideal) x0 x1 j = relu (addRow A (rowVec R)) i := by
  obtain ⟨p, q, rfl⟩ : ∃ (p : Fin 2000) (q : Fin 128), j = ix2 p q := ⟨j 0, j 1, eq_ix2 j⟩
  have h1' : x1 (ix2 (0 : Fin 1) q) = R (ix2 (0 : Fin 1) (i 1)) := h1
  have e : k1_pay1 (F := Ideal) x0 x1 (ix2 p q) = max (x0 (ix2 p q) + x1 (ix2 (0 : Fin 1) q)) 0 := by
    show maximumf (addf (shapeCast S2000x128 x0 shapeCasts_S2000x128_S2000x128) (broadcastTo S2000x128 (shapeCast S1x128 x1 shapeCasts_S1x128_S1x128) broadcasts_S1x128_S2000x128)) (broadcast S2000x128 (Scalar.ofBits (F := Ideal) .f32 0x00000000#32)) (ix2 p q) = _
    rw [maximumf_apply, addf_apply, shapeCast_self, rowRepeat_apply, broadcast_apply]
    show max _ (Ideal.ofBits .f32 0x00000000#32) = _
    rw [Ideal.ofBits_zero_f32]
  rw [e]
  show _ = max (A i + R (ix2 (0 : Fin 1) (i 1))) 0
  rw [h0, h1']

/-- The grid is one axis of 50 points; point `t` works on rows `2000 t … 2000 t + 1999`, all columns. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An index of the result array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row `r` of the result is written by point `r / 2000`: the fifty blocks tile the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨e0, e1, e2, e3, e4, e5⟩ := idx1 ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    omega

/-- What point `t` writes back is block `t` of the bias-and-positive-part layer of the two arrays as the call finds them. -/
theorem flushed1 (c : Dev nD) (t : Fin cfg1.N) :
    (dat1 V c).flushed 2 t = ((cfg1.win 2).blk t).view.read (Elt Ideal) (relu (addRow (V c main_v43) (rowVec (V c main_v44)))) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx1 t
  funext j
  show k1_pay1 (F := Ideal) (iblk1 V c 0 t) (iblk1 V c 1 t) j = relu (addRow (V c main_v43) (rowVec (V c main_v44))) (((cfg1.win 2).blk t).view.emb j)
  refine pay1_block (iblk1 V c 0 t) (iblk1 V c 1 t) (V c main_v43) (V c main_v44) j (((cfg1.win 2).blk t).view.emb j) ?_ ?_
  · show V c main_v43 (((cfg1.win 0).blk t).view.emb j) = V c main_v43 (((cfg1.win 2).blk t).view.emb j)
    refine congrArg (V c main_v43) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb (ix2 (0 : Fin 1) (j 1))) = V c main_v44 (ix2 (0 : Fin 1) ((((cfg1.win 2).blk t).view.emb j) 1))
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- After the call its result array holds the layer of the two arrays it was entered with. -/
theorem final1 (c : Dev nD) : (dat1 V c).arrAt 2 cfg1.N = relu (addRow (V c main_v43) (rowVec (V c main_v44))) :=
  (dat1 V c).arrAt_eq_of_cover 2 (relu (addRow (V c main_v43) (rowVec (V c main_v44)))) (fun t _ => flushed1 V c t) cover1

/-! ## Call 3: the bias row added to a block of 2000 rows, then the positive part -/

/-- The body's value on a block: entry `j` is the whole array's entry `i` when the block's entry `j` is the array's
    entry `i` and the row's column `j 1` is column `i 1`. -/
theorem pay3_block (x0 : FVec Ideal S2000x128 .f32) (x1 : FVec Ideal S1x128 .f32)
    (A : FVec Ideal S100000x128 .f32) (R : FVec Ideal S1x128 .f32) (j : S2000x128.Idx) (i : S100000x128.Idx)
    (h0 : x0 j = A i) (h1 : x1 (ix2 (0 : Fin 1) (j 1)) = R (ix2 (0 : Fin 1) (i 1))) :
    k3_pay1 (F := Ideal) x0 x1 j = relu (addRow A (rowVec R)) i := by
  obtain ⟨p, q, rfl⟩ : ∃ (p : Fin 2000) (q : Fin 128), j = ix2 p q := ⟨j 0, j 1, eq_ix2 j⟩
  have h1' : x1 (ix2 (0 : Fin 1) q) = R (ix2 (0 : Fin 1) (i 1)) := h1
  have e : k3_pay1 (F := Ideal) x0 x1 (ix2 p q) = max (x0 (ix2 p q) + x1 (ix2 (0 : Fin 1) q)) 0 := by
    show maximumf (addf (shapeCast S2000x128 x0 shapeCasts_S2000x128_S2000x128) (broadcastTo S2000x128 (shapeCast S1x128 x1 shapeCasts_S1x128_S1x128) broadcasts_S1x128_S2000x128)) (broadcast S2000x128 (Scalar.ofBits (F := Ideal) .f32 0x00000000#32)) (ix2 p q) = _
    rw [maximumf_apply, addf_apply, shapeCast_self, rowRepeat_apply, broadcast_apply]
    show max _ (Ideal.ofBits .f32 0x00000000#32) = _
    rw [Ideal.ofBits_zero_f32]
  rw [e]
  show _ = max (A i + R (ix2 (0 : Fin 1) (i 1))) 0
  rw [h0, h1']

/-- The grid is one axis of 50 points; point `t` works on rows `2000 t … 2000 t + 1999`, all columns. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the result array is in point `t`'s block iff each coordinate is in the block's range on its axis. -/
theorem mem_blk3 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Row `r` of the result is written by point `r / 2000`: the fifty blocks tile the array. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨e0, e1, e2, e3, e4, e5⟩ := idx3 ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    omega

/-- What point `t` writes back is block `t` of the bias-and-positive-part layer of the two arrays as the call finds them. -/
theorem flushed3 (c : Dev nD) (t : Fin cfg3.N) :
    (dat3 V c).flushed 2 t = ((cfg3.win 2).blk t).view.read (Elt Ideal) (relu (addRow (V c main_v59) (rowVec (V c main_v60)))) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx3 t
  funext j
  show k3_pay1 (F := Ideal) (iblk3 V c 0 t) (iblk3 V c 1 t) j = relu (addRow (V c main_v59) (rowVec (V c main_v60))) (((cfg3.win 2).blk t).view.emb j)
  refine pay3_block (iblk3 V c 0 t) (iblk3 V c 1 t) (V c main_v59) (V c main_v60) j (((cfg3.win 2).blk t).view.emb j) ?_ ?_
  · show V c main_v59 (((cfg3.win 0).blk t).view.emb j) = V c main_v59 (((cfg3.win 2).blk t).view.emb j)
    refine congrArg (V c main_v59) ?_
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  · show V c main_v60 (((cfg3.win 1).blk t).view.emb (ix2 (0 : Fin 1) (j 1))) = V c main_v60 (ix2 (0 : Fin 1) ((((cfg3.win 2).blk t).view.emb j) 1))
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- After the call its result array holds the layer of the two arrays it was entered with. -/
theorem final3 (c : Dev nD) : (dat3 V c).arrAt 2 cfg3.N = relu (addRow (V c main_v59) (rowVec (V c main_v60))) :=
  (dat3 V c).arrAt_eq_of_cover 2 (relu (addRow (V c main_v59) (rowVec (V c main_v60)))) (fun t _ => flushed3 V c t) cover3

/-! ## Call 5: the bias row added to a block of 2000 rows, then the positive part -/

/-- The body's value on a block: entry `j` is the whole array's entry `i` when the block's entry `j` is the array's
    entry `i` and the row's column `j 1` is column `i 1`. -/
theorem pay5_block (x0 : FVec Ideal S2000x64 .f32) (x1 : FVec Ideal S1x64 .f32)
    (A : FVec Ideal S100000x64 .f32) (R : FVec Ideal S1x64 .f32) (j : S2000x64.Idx) (i : S100000x64.Idx)
    (h0 : x0 j = A i) (h1 : x1 (ix2 (0 : Fin 1) (j 1)) = R (ix2 (0 : Fin 1) (i 1))) :
    k5_pay1 (F := Ideal) x0 x1 j = relu (addRow A (rowVec R)) i := by
  obtain ⟨p, q, rfl⟩ : ∃ (p : Fin 2000) (q : Fin 64), j = ix2 p q := ⟨j 0, j 1, eq_ix2 j⟩
  have h1' : x1 (ix2 (0 : Fin 1) q) = R (ix2 (0 : Fin 1) (i 1)) := h1
  have e : k5_pay1 (F := Ideal) x0 x1 (ix2 p q) = max (x0 (ix2 p q) + x1 (ix2 (0 : Fin 1) q)) 0 := by
    show maximumf (addf (shapeCast S2000x64 x0 shapeCasts_S2000x64_S2000x64) (broadcastTo S2000x64 (shapeCast S1x64 x1 shapeCasts_S1x64_S1x64) broadcasts_S1x64_S2000x64)) (broadcast S2000x64 (Scalar.ofBits (F := Ideal) .f32 0x00000000#32)) (ix2 p q) = _
    rw [maximumf_apply, addf_apply, shapeCast_self, rowRepeat_apply, broadcast_apply]
    show max _ (Ideal.ofBits .f32 0x00000000#32) = _
    rw [Ideal.ofBits_zero_f32]
  rw [e]
  show _ = max (A i + R (ix2 (0 : Fin 1) (i 1))) 0
  rw [h0, h1']

/-- The grid is one axis of 50 points; point `t` works on rows `2000 t … 2000 t + 1999`, all columns. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An index of the result array is in point `t`'s block iff each coordinate is in the block's range on its axis. -/
theorem mem_blk5 (t : Fin cfg5.N) (i : S100000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v77).slice (win5_2.rect t)).set ↔ _
  rw [View.set_slice_whole, Rect.mem_set_unit]
  exact Iff.rfl

/-- Row `r` of the result is written by point `r / 2000`: the fifty blocks tile the array. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 50 := N_5
  have ht : (i 0).val / 2000 < cfg5.N := by rw [hN]; omega
  obtain ⟨e0, e1, e2, e3, e4, e5⟩ := idx5 ⟨(i 0).val / 2000, ht⟩
  have e4' : win5_2.index ⟨(i 0).val / 2000, ht⟩ (0 : Fin 2) = (i 0).val / 2000 := e4
  refine ⟨⟨(i 0).val / 2000, ht⟩, flush5_2 _, ?_⟩
  rw [mem_blk5]
  intro a
  match a with
  | ⟨0, _⟩ =>
    show win5_2.index ⟨(i 0).val / 2000, ht⟩ (0 : Fin 2) * 2000 ≤ (i 0).val ∧ (i 0).val < win5_2.index ⟨(i 0).val / 2000, ht⟩ (0 : Fin 2) * 2000 + 2000
    omega
  | ⟨1, _⟩ =>
    show win5_2.index ⟨(i 0).val / 2000, ht⟩ (1 : Fin 2) * 64 ≤ (i 1).val ∧ (i 1).val < win5_2.index ⟨(i 0).val / 2000, ht⟩ (1 : Fin 2) * 64 + 64
    omega

/-- What point `t` writes back is block `t` of the bias-and-positive-part layer of the two arrays as the call finds them. -/
theorem flushed5 (c : Dev nD) (t : Fin cfg5.N) :
    (dat5 V c).flushed 2 t = ((cfg5.win 2).blk t).view.read (Elt Ideal) (relu (addRow (V c main_v75) (rowVec (V c main_v76)))) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  obtain ⟨e0, e1, e2, e3, e4, e5⟩ := idx5 t
  funext j
  show k5_pay1 (F := Ideal) (iblk5 V c 0 t) (iblk5 V c 1 t) j = relu (addRow (V c main_v75) (rowVec (V c main_v76))) (((cfg5.win 2).blk t).view.emb j)
  refine pay5_block (iblk5 V c 0 t) (iblk5 V c 1 t) (V c main_v75) (V c main_v76) j (((cfg5.win 2).blk t).view.emb j) ?_ ?_
  · show V c main_v75 (((cfg5.win 0).blk t).view.emb j) = V c main_v75 (((cfg5.win 2).blk t).view.emb j)
    refine congrArg (V c main_v75) ?_
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  · show V c main_v76 (((cfg5.win 1).blk t).view.emb (ix2 (0 : Fin 1) (j 1))) = V c main_v76 (ix2 (0 : Fin 1) ((((cfg5.win 2).blk t).view.emb j) 1))
    refine congrArg (V c main_v76) ?_
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega

/-- After the call its result array holds the layer of the two arrays it was entered with. -/
theorem final5 (c : Dev nD) : (dat5 V c).arrAt 2 cfg5.N = relu (addRow (V c main_v75) (rowVec (V c main_v76))) :=
  (dat5 V c).arrAt_eq_of_cover 2 (relu (addRow (V c main_v75) (rowVec (V c main_v76)))) (fun t _ => flushed5 V c t) cover5

/-! ## Call 7: the bias row added to a block of 2000 rows -/

/-- The body's value on a block: entry `j` is the whole array's entry `i` when the block's entry `j` is the array's
    entry `i` and the row's column `j 1` is column `i 1`. -/
theorem pay7_block (x0 : FVec Ideal S2000x32 .f32) (x1 : FVec Ideal S1x32 .f32)
    (A : FVec Ideal S100000x32 .f32) (R : FVec Ideal S1x32 .f32) (j : S2000x32.Idx) (i : S100000x32.Idx)
    (h0 : x0 j = A i) (h1 : x1 (ix2 (0 : Fin 1) (j 1)) = R (ix2 (0 : Fin 1) (i 1))) :
    k7_pay1 (F := Ideal) x0 x1 j = addRow A (rowVec R) i := by
  obtain ⟨p, q, rfl⟩ : ∃ (p : Fin 2000) (q : Fin 32), j = ix2 p q := ⟨j 0, j 1, eq_ix2 j⟩
  have h1' : x1 (ix2 (0 : Fin 1) q) = R (ix2 (0 : Fin 1) (i 1)) := h1
  have e : k7_pay1 (F := Ideal) x0 x1 (ix2 p q) = x0 (ix2 p q) + x1 (ix2 (0 : Fin 1) q) := by
    show addf (shapeCast S2000x32 x0 shapeCasts_S2000x32_S2000x32) (broadcastTo S2000x32 (shapeCast S1x32 x1 shapeCasts_S1x32_S1x32) broadcasts_S1x32_S2000x32) (ix2 p q) = _
    rw [addf_apply, shapeCast_self, rowRepeat_apply]
  rw [e]
  show _ = A i + R (ix2 (0 : Fin 1) (i 1))
  rw [h0, h1']

/-- The grid is one axis of 50 points; point `t` works on rows `2000 t … 2000 t + 1999`, all columns. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- An index of the result array is in point `t`'s block iff each coordinate is in the block's range on its axis. -/
theorem mem_blk7 (t : Fin cfg7.N) (i : S100000x32.Idx) :
    i ∈ ((cfg7.win 2).blk t).view.set ↔ ∀ a : Fin 2, win7_2.index t a * S2000x32.size a ≤ (i a).val ∧ (i a).val < win7_2.index t a * S2000x32.size a + S2000x32.size a := by
  show i ∈ ((View.whole main_v93).slice (win7_2.rect t)).set ↔ _
  rw [View.set_slice_whole, Rect.mem_set_unit]
  exact Iff.rfl

/-- Row `r` of the result is written by point `r / 2000`: the fifty blocks tile the array. -/
theorem cover7 (i : S100000x32.Idx) :
    ∃ t : Fin cfg7.N, (cfg7.win 2).flush t = true ∧ i ∈ ((cfg7.win 2).blk t).view.set := by
  have hi0 : (i 0).val < 100000 := (i 0).isLt
  have hi1 : (i 1).val < 32 := (i 1).isLt
  have hN : cfg7.N = 50 := N_7
  have ht : (i 0).val / 2000 < cfg7.N := by rw [hN]; omega
  obtain ⟨e0, e1, e2, e3, e4, e5⟩ := idx7 ⟨(i 0).val / 2000, ht⟩
  have e4' : win7_2.index ⟨(i 0).val / 2000, ht⟩ (0 : Fin 2) = (i 0).val / 2000 := e4
  refine ⟨⟨(i 0).val / 2000, ht⟩, flush7_2 _, ?_⟩
  rw [mem_blk7]
  intro a
  match a with
  | ⟨0, _⟩ =>
    show win7_2.index ⟨(i 0).val / 2000, ht⟩ (0 : Fin 2) * 2000 ≤ (i 0).val ∧ (i 0).val < win7_2.index ⟨(i 0).val / 2000, ht⟩ (0 : Fin 2) * 2000 + 2000
    omega
  | ⟨1, _⟩ =>
    show win7_2.index ⟨(i 0).val / 2000, ht⟩ (1 : Fin 2) * 32 ≤ (i 1).val ∧ (i 1).val < win7_2.index ⟨(i 0).val / 2000, ht⟩ (1 : Fin 2) * 32 + 32
    omega

/-- What point `t` writes back is block `t` of the bias layer of the two arrays as the call finds them. -/
theorem flushed7 (c : Dev nD) (t : Fin cfg7.N) :
    (dat7 V c).flushed 2 t = ((cfg7.win 2).blk t).view.read (Elt Ideal) (addRow (V c main_v91) (rowVec (V c main_v92))) := by
  show (cfg7.win 2).cut (grid7.coords t) ((dat7 V c).after 2 t) = _
  rw [after7_2]
  unfold out7_2
  rw [View.canon_unit_zero hz]
  simp only [View.ld_unit_zero (S := S2000x32) hz, View.ld_unit_zero (S := S1x32) hz]
  obtain ⟨e0, e1, e2, e3, e4, e5⟩ := idx7 t
  funext j
  show k7_pay1 (F := Ideal) (iblk7 V c 0 t) (iblk7 V c 1 t) j = addRow (V c main_v91) (rowVec (V c main_v92)) (((cfg7.win 2).blk t).view.emb j)
  refine pay7_block (iblk7 V c 0 t) (iblk7 V c 1 t) (V c main_v91) (V c main_v92) j (((cfg7.win 2).blk t).view.emb j) ?_ ?_
  · show V c main_v91 (((cfg7.win 0).blk t).view.emb j) = V c main_v91 (((cfg7.win 2).blk t).view.emb j)
    refine congrArg (V c main_v91) ?_
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 32 + 1 * (j 1).val = win7_2.index t (1 : Fin 2) * 32 + 1 * (j 1).val; omega
  · show V c main_v92 (((cfg7.win 1).blk t).view.emb (ix2 (0 : Fin 1) (j 1))) = V c main_v92 (ix2 (0 : Fin 1) ((((cfg7.win 2).blk t).view.emb j) 1))
    refine congrArg (V c main_v92) ?_
    funext a; apply Fin.ext
    match a with
    | ⟨0, _⟩ => show win7_1.index t (0 : Fin 2) * 1 + 1 * 0 = 0; omega
    | ⟨1, _⟩ => show win7_1.index t (1 : Fin 2) * 32 + 1 * (j 1).val = win7_2.index t (1 : Fin 2) * 32 + 1 * (j 1).val; omega

/-- After the call its result array holds the layer of the two arrays it was entered with. -/
theorem final7 (c : Dev nD) : (dat7 V c).arrAt 2 cfg7.N = addRow (V c main_v91) (rowVec (V c main_v92)) :=
  (dat7 V c).arrAt_eq_of_cover 2 (addRow (V c main_v91) (rowVec (V c main_v92))) (fun t _ => flushed7 V c t) cover7

end Cert.KernelIdeal.Whole.Act

end
-- ==== Proof.KHost.lean ====
/-
  The stretches of host operations between the calls, each read from arbitrary starting contents.

  Before the first call the program builds the edge lists and the edges' weights (`srcs`, `dsts`, `coef` of the edge
  table). Between a product call and the bias call that follows it, it gathers the product's rows by source, scales
  them by the weights, scatter-adds them by destination (`agg128`, `agg64`, `agg32`), and lays the bias vector out as a
  one-row matrix. None of these stretches writes the edge lists, the weights or an argument array.
-/
import proofs.«173428_j39960375722314_1_alg».proof.Proof.Gen.KernelIdeal.Launch
import proofs.«173428_j39960375722314_1_alg».proof.Proof.Spec
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn

/-- Two buffer contents agree on what later segments read: the two edge lists, the edges' weights and the argument
    arrays not yet consumed. -/
structure Same (Wv Wv' : Valuation τ sig (Elt Ideal)) : Prop where
  src : Wv' (Proc.devRef .tc main_v3) = Wv (Proc.devRef .tc main_v3)
  dst : Wv' (Proc.devRef .tc main_v6) = Wv (Proc.devRef .tc main_v6)
  coef : Wv' (Proc.devRef .tc main_v29) = Wv (Proc.devRef .tc main_v29)
  a3 : Wv' (Proc.devRef .tc main_arg3) = Wv (Proc.devRef .tc main_arg3)
  a4 : Wv' (Proc.devRef .tc main_arg4) = Wv (Proc.devRef .tc main_arg4)
  a5 : Wv' (Proc.devRef .tc main_arg5) = Wv (Proc.devRef .tc main_arg5)
  a6 : Wv' (Proc.devRef .tc main_arg6) = Wv (Proc.devRef .tc main_arg6)
  a7 : Wv' (Proc.devRef .tc main_arg7) = Wv (Proc.devRef .tc main_arg7)
  a8 : Wv' (Proc.devRef .tc main_arg8) = Wv (Proc.devRef .tc main_arg8)
  a9 : Wv' (Proc.devRef .tc main_arg9) = Wv (Proc.devRef .tc main_arg9)

theorem Same.refl (Wv : Valuation τ sig (Elt Ideal)) : Same Wv Wv := ⟨rfl, rfl, rfl, rfl, rfl, rfl, rfl, rfl, rfl, rfl⟩

theorem Same.trans {W1 W2 W3 : Valuation τ sig (Elt Ideal)} (h : Same W1 W2) (h' : Same W2 W3) : Same W1 W3 :=
  ⟨h'.src.trans h.src, h'.dst.trans h.dst, h'.coef.trans h.coef, h'.a3.trans h.a3, h'.a4.trans h.a4, h'.a5.trans h.a5, h'.a6.trans h.a6, h'.a7.trans h.a7, h'.a8.trans h.a8, h'.a9.trans h.a9⟩

/-! ## Before the first call: the edge lists and the edges' weights -/

/-- Two buffer contents agree on the edge lists and on every float argument array. -/
structure Kept (Wv Wv' : Valuation τ sig (Elt Ideal)) : Prop where
  src : Wv' (Proc.devRef .tc main_v3) = Wv (Proc.devRef .tc main_v3)
  dst : Wv' (Proc.devRef .tc main_v6) = Wv (Proc.devRef .tc main_v6)
  a0 : Wv' (Proc.devRef .tc main_arg0) = Wv (Proc.devRef .tc main_arg0)
  a2 : Wv' (Proc.devRef .tc main_arg2) = Wv (Proc.devRef .tc main_arg2)
  a3 : Wv' (Proc.devRef .tc main_arg3) = Wv (Proc.devRef .tc main_arg3)
  a4 : Wv' (Proc.devRef .tc main_arg4) = Wv (Proc.devRef .tc main_arg4)
  a5 : Wv' (Proc.devRef .tc main_arg5) = Wv (Proc.devRef .tc main_arg5)
  a6 : Wv' (Proc.devRef .tc main_arg6) = Wv (Proc.devRef .tc main_arg6)
  a7 : Wv' (Proc.devRef .tc main_arg7) = Wv (Proc.devRef .tc main_arg7)
  a8 : Wv' (Proc.devRef .tc main_arg8) = Wv (Proc.devRef .tc main_arg8)
  a9 : Wv' (Proc.devRef .tc main_arg9) = Wv (Proc.devRef .tc main_arg9)

/-! ### The first stretch: the edge lists, the degrees, and where a degree is positive -/

theorem pre0_src (Wv : Valuation τ sig (Elt Ideal)) :
    StableHlo.after (hostOps0 (F := Ideal)) Wv (Proc.devRef .tc main_v3) = srcs (Wv (Proc.devRef .tc main_arg1)) := by
  after_results <;> rfl

theorem pre0_dst (Wv : Valuation τ sig (Elt Ideal)) :
    StableHlo.after (hostOps0 (F := Ideal)) Wv (Proc.devRef .tc main_v6) = dsts (Wv (Proc.devRef .tc main_arg1)) := by
  after_results <;> rfl

/-- Where the degree is positive. -/
theorem pre0_pos (Wv : Valuation τ sig (Elt Ideal)) :
    StableHlo.after (hostOps0 (F := Ideal)) Wv (Proc.devRef .tc main_v12)
      = cmpf (F := Ideal) .ogt (degree (F := Ideal) (Wv (Proc.devRef .tc main_arg1))) (broadcastInDim S100000 ![] bcast_S_S100000 (constant (F := Ideal) S_ .f32 0x00000000#32)) := by
  after_results <;> rfl

/-- The reciprocal square root of the degree. -/
theorem pre0_rsqrt (Wv : Valuation τ sig (Elt Ideal)) :
    StableHlo.after (hostOps0 (F := Ideal)) Wv (Proc.devRef .tc main_v13) = Host.rsqrt (F := Ideal) (degree (F := Ideal) (Wv (Proc.devRef .tc main_arg1))) := by
  after_results <;> rfl

/-- The zero that stands where the degree is not positive. -/
theorem pre0_zero (Wv : Valuation τ sig (Elt Ideal)) :
    StableHlo.after (hostOps0 (F := Ideal)) Wv (Proc.devRef .tc main_cst_2) = constant (F := Ideal) S_ .f32 0x00000000#32 := by
  after_results <;> rfl

theorem pre0_args (Wv : Valuation τ sig (Elt Ideal)) :
    StableHlo.after (hostOps0 (F := Ideal)) Wv (Proc.devRef .tc main_arg0) = Wv (Proc.devRef .tc main_arg0)
    ∧ StableHlo.after (hostOps0 (F := Ideal)) Wv (Proc.devRef .tc main_arg2) = Wv (Proc.devRef .tc main_arg2)
    ∧ StableHlo.after (hostOps0 (F := Ideal)) Wv (Proc.devRef .tc main_arg3) = Wv (Proc.devRef .tc main_arg3)
    ∧ StableHlo.after (hostOps0 (F := Ideal)) Wv (Proc.devRef .tc main_arg4) = Wv (Proc.devRef .tc main_arg4)
    ∧ StableHlo.after (hostOps0 (F := Ideal)) Wv (Proc.devRef .tc main_arg5) = Wv (Proc.devRef .tc main_arg5)
    ∧ StableHlo.after (hostOps0 (F := Ideal)) Wv (Proc.devRef .tc main_arg6) = Wv (Proc.devRef .tc main_arg6)
    ∧ StableHlo.after (hostOps0 (F := Ideal)) Wv (Proc.devRef .tc main_arg7) = Wv (Proc.devRef .tc main_arg7)
    ∧ StableHlo.after (hostOps0 (F := Ideal)) Wv (Proc.devRef .tc main_arg8) = Wv (Proc.devRef .tc main_arg8)
    ∧ StableHlo.after (hostOps0 (F := Ideal)) Wv (Proc.devRef .tc main_arg9) = Wv (Proc.devRef .tc main_arg9) :=
  ⟨by after_results_simp, by after_results_simp, by after_results_simp, by after_results_simp, by after_results_simp, by after_results_simp, by after_results_simp, by after_results_simp, by after_results_simp⟩

/-! ### The second stretch: `dinv`, chosen entry by entry -/

theorem pre1_dinv (Wv : Valuation τ sig (Elt Ideal)) :
    StableHlo.after (hostOps0_1 (F := Ideal)) Wv (Proc.devRef .tc main_v14)
      = select (Wv (Proc.devRef .tc main_v12)) (Wv (Proc.devRef .tc main_v13)) (broadcastInDim S100000 ![] bcast_S_S100000 (id (Wv (Proc.devRef .tc main_cst_2)))) := by
  after_results <;> rfl

theorem pre1_kept (Wv : Valuation τ sig (Elt Ideal)) : Kept Wv (StableHlo.after (hostOps0_1 (F := Ideal)) Wv) where
  src := by after_results_simp
  dst := by after_results_simp
  a0 := by after_results_simp
  a2 := by after_results_simp
  a3 := by after_results_simp
  a4 := by after_results_simp
  a5 := by after_results_simp
  a6 := by after_results_simp
  a7 := by after_results_simp
  a8 := by after_results_simp
  a9 := by after_results_simp

/-! ### The third stretch: the edges' weights -/

theorem pre2_coef (Wv : Valuation τ sig (Elt Ideal)) :
    StableHlo.after (hostOps0_2 (F := Ideal)) Wv (Proc.devRef .tc main_v29)
      = mulf (F := Ideal) (φ := .f32) (Host.gather gather_S100000_S1700000x1_S1700000_n_0_n_n_0_1_1 (Wv (Proc.devRef .tc main_v14)) (broadcastInDim S1700000x1 ![0] bcast_S1700000_S1700000x1_0 (wrapIdx (Wv (Proc.devRef .tc main_v3)))))
          (Host.gather gather_S100000_S1700000x1_S1700000_n_0_n_n_0_1_1 (Wv (Proc.devRef .tc main_v14)) (broadcastInDim S1700000x1 ![0] bcast_S1700000_S1700000x1_0 (wrapIdx (Wv (Proc.devRef .tc main_v6))))) := by
  after_results_simp <;> rfl

theorem pre2_kept (Wv : Valuation τ sig (Elt Ideal)) : Kept Wv (StableHlo.after (hostOps0_2 (F := Ideal)) Wv) where
  src := by after_results_simp
  dst := by after_results_simp
  a0 := by after_results_simp
  a2 := by after_results_simp
  a3 := by after_results_simp
  a4 := by after_results_simp
  a5 := by after_results_simp
  a6 := by after_results_simp
  a7 := by after_results_simp
  a8 := by after_results_simp
  a9 := by after_results_simp

/-! ### The three stretches in order -/

/-- The three stretches before the first call, in order. -/
abbrev prelude (Wv : Valuation τ sig (Elt Ideal)) : Valuation τ sig (Elt Ideal) :=
  StableHlo.after (hostOps0_2 (F := Ideal)) (StableHlo.after (hostOps0_1 (F := Ideal)) (StableHlo.after (hostOps0 (F := Ideal)) Wv))

theorem prelude_src (Wv : Valuation τ sig (Elt Ideal)) :
    prelude Wv (Proc.devRef .tc main_v3) = srcs (Wv (Proc.devRef .tc main_arg1)) :=
  (pre2_kept _).src.trans ((pre1_kept _).src.trans (pre0_src Wv))

theorem prelude_dst (Wv : Valuation τ sig (Elt Ideal)) :
    prelude Wv (Proc.devRef .tc main_v6) = dsts (Wv (Proc.devRef .tc main_arg1)) :=
  (pre2_kept _).dst.trans ((pre1_kept _).dst.trans (pre0_dst Wv))

theorem prelude_coef (Wv : Valuation τ sig (Elt Ideal)) :
    prelude Wv (Proc.devRef .tc main_v29) = coef (F := Ideal) (Wv (Proc.devRef .tc main_arg1)) := by
  refine (pre2_coef _).trans ?_
  rw [pre1_dinv, (pre1_kept _).src, (pre1_kept _).dst, pre0_pos, pre0_rsqrt, pre0_zero, pre0_src, pre0_dst]
  rfl

/-- The stretches before the first call write no argument array. -/
theorem prelude_args (Wv : Valuation τ sig (Elt Ideal)) :
    prelude Wv (Proc.devRef .tc main_arg0) = Wv (Proc.devRef .tc main_arg0)
    ∧ prelude Wv (Proc.devRef .tc main_arg2) = Wv (Proc.devRef .tc main_arg2)
    ∧ prelude Wv (Proc.devRef .tc main_arg3) = Wv (Proc.devRef .tc main_arg3)
    ∧ prelude Wv (Proc.devRef .tc main_arg4) = Wv (Proc.devRef .tc main_arg4)
    ∧ prelude Wv (Proc.devRef .tc main_arg5) = Wv (Proc.devRef .tc main_arg5)
    ∧ prelude Wv (Proc.devRef .tc main_arg6) = Wv (Proc.devRef .tc main_arg6)
    ∧ prelude Wv (Proc.devRef .tc main_arg7) = Wv (Proc.devRef .tc main_arg7)
    ∧ prelude Wv (Proc.devRef .tc main_arg8) = Wv (Proc.devRef .tc main_arg8)
    ∧ prelude Wv (Proc.devRef .tc main_arg9) = Wv (Proc.devRef .tc main_arg9) :=
  ⟨(pre2_kept _).a0.trans ((pre1_kept _).a0.trans (pre0_args Wv).1),
   (pre2_kept _).a2.trans ((pre1_kept _).a2.trans (pre0_args Wv).2.1),
   (pre2_kept _).a3.trans ((pre1_kept _).a3.trans (pre0_args Wv).2.2.1),
   (pre2_kept _).a4.trans ((pre1_kept _).a4.trans (pre0_args Wv).2.2.2.1),
   (pre2_kept _).a5.trans ((pre1_kept _).a5.trans (pre0_args Wv).2.2.2.2.1),
   (pre2_kept _).a6.trans ((pre1_kept _).a6.trans (pre0_args Wv).2.2.2.2.2.1),
   (pre2_kept _).a7.trans ((pre1_kept _).a7.trans (pre0_args Wv).2.2.2.2.2.2.1),
   (pre2_kept _).a8.trans ((pre1_kept _).a8.trans (pre0_args Wv).2.2.2.2.2.2.2.1),
   (pre2_kept _).a9.trans ((pre1_kept _).a9.trans (pre0_args Wv).2.2.2.2.2.2.2.2)⟩

/-! ## Between calls 0 and 1: aggregation of the first product, 128 features -/

/-- The aggregation the stretch computes, from the contents it starts from. -/
theorem host1_agg (Wv : Valuation τ sig (Elt Ideal)) :
    StableHlo.after (hostOps1 (F := Ideal)) Wv (Proc.devRef .tc main_v43)
      = agg128 (F := Ideal) (Wv (Proc.devRef .tc main_v30)) (Wv (Proc.devRef .tc main_v3)) (Wv (Proc.devRef .tc main_v6)) (Wv (Proc.devRef .tc main_v29)) := by
  after_results_simp <;> rfl

/-- The bias vector laid out as a one-row matrix. -/
theorem host1_row (Wv : Valuation τ sig (Elt Ideal)) :
    StableHlo.after (hostOps1 (F := Ideal)) Wv (Proc.devRef .tc main_v44) = shapeCast S1x128 (Wv (Proc.devRef .tc main_arg3)) shapeCasts_S128_S1x128 := by
  after_results <;> rfl

/-- The stretch writes none of the buffers later segments read. -/
theorem host1_same (Wv : Valuation τ sig (Elt Ideal)) : Same Wv (StableHlo.after (hostOps1 (F := Ideal)) Wv) where
  src := by after_results_simp
  dst := by after_results_simp
  coef := by after_results_simp
  a3 := by after_results_simp
  a4 := by after_results_simp
  a5 := by after_results_simp
  a6 := by after_results_simp
  a7 := by after_results_simp
  a8 := by after_results_simp
  a9 := by after_results_simp

/-! ## Between calls 2 and 3: aggregation of the second product, 128 features -/

/-- The aggregation the stretch computes, from the contents it starts from. -/
theorem host3_agg (Wv : Valuation τ sig (Elt Ideal)) :
    StableHlo.after (hostOps3 (F := Ideal)) Wv (Proc.devRef .tc main_v59)
      = agg128 (F := Ideal) (Wv (Proc.devRef .tc main_v46)) (Wv (Proc.devRef .tc main_v3)) (Wv (Proc.devRef .tc main_v6)) (Wv (Proc.devRef .tc main_v29)) := by
  after_results_simp <;> rfl

/-- The bias vector laid out as a one-row matrix. -/
theorem host3_row (Wv : Valuation τ sig (Elt Ideal)) :
    StableHlo.after (hostOps3 (F := Ideal)) Wv (Proc.devRef .tc main_v60) = shapeCast S1x128 (Wv (Proc.devRef .tc main_arg5)) shapeCasts_S128_S1x128 := by
  after_results <;> rfl

/-- The stretch writes none of the buffers later segments read. -/
theorem host3_same (Wv : Valuation τ sig (Elt Ideal)) : Same Wv (StableHlo.after (hostOps3 (F := Ideal)) Wv) where
  src := by after_results_simp
  dst := by after_results_simp
  coef := by after_results_simp
  a3 := by after_results_simp
  a4 := by after_results_simp
  a5 := by after_results_simp
  a6 := by after_results_simp
  a7 := by after_results_simp
  a8 := by after_results_simp
  a9 := by after_results_simp

/-! ## Between calls 4 and 5: aggregation of the third product, 64 features -/

/-- The aggregation the stretch computes, from the contents it starts from. -/
theorem host5_agg (Wv : Valuation τ sig (Elt Ideal)) :
    StableHlo.after (hostOps5 (F := Ideal)) Wv (Proc.devRef .tc main_v75)
      = agg64 (F := Ideal) (Wv (Proc.devRef .tc main_v62)) (Wv (Proc.devRef .tc main_v3)) (Wv (Proc.devRef .tc main_v6)) (Wv (Proc.devRef .tc main_v29)) := by
  after_results_simp <;> rfl

/-- The bias vector laid out as a one-row matrix. -/
theorem host5_row (Wv : Valuation τ sig (Elt Ideal)) :
    StableHlo.after (hostOps5 (F := Ideal)) Wv (Proc.devRef .tc main_v76) = shapeCast S1x64 (Wv (Proc.devRef .tc main_arg7)) shapeCasts_S64_S1x64 := by
  after_results <;> rfl

/-- The stretch writes none of the buffers later segments read. -/
theorem host5_same (Wv : Valuation τ sig (Elt Ideal)) : Same Wv (StableHlo.after (hostOps5 (F := Ideal)) Wv) where
  src := by after_results_simp
  dst := by after_results_simp
  coef := by after_results_simp
  a3 := by after_results_simp
  a4 := by after_results_simp
  a5 := by after_results_simp
  a6 := by after_results_simp
  a7 := by after_results_simp
  a8 := by after_results_simp
  a9 := by after_results_simp

/-! ## Between calls 6 and 7: aggregation of the last product, 32 features -/

/-- The aggregation the stretch computes, from the contents it starts from. -/
theorem host7_agg (Wv : Valuation τ sig (Elt Ideal)) :
    StableHlo.after (hostOps7 (F := Ideal)) Wv (Proc.devRef .tc main_v91)
      = agg32 (F := Ideal) (Wv (Proc.devRef .tc main_v78)) (Wv (Proc.devRef .tc main_v3)) (Wv (Proc.devRef .tc main_v6)) (Wv (Proc.devRef .tc main_v29)) := by
  after_results_simp <;> rfl

/-- The bias vector laid out as a one-row matrix. -/
theorem host7_row (Wv : Valuation τ sig (Elt Ideal)) :
    StableHlo.after (hostOps7 (F := Ideal)) Wv (Proc.devRef .tc main_v92) = shapeCast S1x32 (Wv (Proc.devRef .tc main_arg9)) shapeCasts_S32_S1x32 := by
  after_results <;> rfl

/-- The stretch writes none of the buffers later segments read. -/
theorem host7_same (Wv : Valuation τ sig (Elt Ideal)) : Same Wv (StableHlo.after (hostOps7 (F := Ideal)) Wv) where
  src := by after_results_simp
  dst := by after_results_simp
  coef := by after_results_simp
  a3 := by after_results_simp
  a4 := by after_results_simp
  a5 := by after_results_simp
  a6 := by after_results_simp
  a7 := by after_results_simp
  a8 := by after_results_simp
  a9 := by after_results_simp

end Cert.KernelIdeal.Whole

end
-- ==== Proof.KFold.lean ====
/-
  The fold of buffer contents through the fifteen segments, read at the buffers that carry the network's values.

  At the first call's entry (`W3`) the edge lists and the edges' weights hold `srcs`, `dsts`, `coef` of the edge table and
  every argument array is as launched; no later segment writes any of them (`Same`). A product call leaves the plain
  product of its two arrays, the stretch after it leaves the aggregation and the bias as a one-row matrix, and the
  bias call leaves the layer's output. Reading the four layers in order gives the result array as `net` of the
  argument arrays.
-/
import proofs.«173428_j39960375722314_1_alg».proof.Proof.Gen.KernelIdeal.Frame
import proofs.«173428_j39960375722314_1_alg».proof.Proof.KMat
import proofs.«173428_j39960375722314_1_alg».proof.Proof.KAct
import proofs.«173428_j39960375722314_1_alg».proof.Proof.KHost

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn
open Cert.Lib.Dense Cert.Lib.RowLayers

variable (m : (ℓ : Loc nD τ sig) → Buf (Elt Ideal) ℓ) (ρ : Dev nD → PrngReg) (c : Dev nD)

/-! ## The first call's entry -/

theorem src3 : W3 m ρ c (Proc.devRef .tc main_v3) = srcs (m ((c : Thread nD τ).loc main_arg1)) := prelude_src (W0 m ρ c)
theorem dst3 : W3 m ρ c (Proc.devRef .tc main_v6) = dsts (m ((c : Thread nD τ).loc main_arg1)) := prelude_dst (W0 m ρ c)
theorem coef3 : W3 m ρ c (Proc.devRef .tc main_v29) = coef (F := Ideal) (m ((c : Thread nD τ).loc main_arg1)) := prelude_coef (W0 m ρ c)
theorem arg0_3 : W3 m ρ c (Proc.devRef .tc main_arg0) = (m ((c : Thread nD τ).loc main_arg0)) := (prelude_args (W0 m ρ c)).1
theorem arg2_3 : W3 m ρ c (Proc.devRef .tc main_arg2) = (m ((c : Thread nD τ).loc main_arg2)) := (prelude_args (W0 m ρ c)).2.1
theorem arg3_3 : W3 m ρ c (Proc.devRef .tc main_arg3) = (m ((c : Thread nD τ).loc main_arg3)) := (prelude_args (W0 m ρ c)).2.2.1
theorem arg4_3 : W3 m ρ c (Proc.devRef .tc main_arg4) = (m ((c : Thread nD τ).loc main_arg4)) := (prelude_args (W0 m ρ c)).2.2.2.1
theorem arg5_3 : W3 m ρ c (Proc.devRef .tc main_arg5) = (m ((c : Thread nD τ).loc main_arg5)) := (prelude_args (W0 m ρ c)).2.2.2.2.1
theorem arg6_3 : W3 m ρ c (Proc.devRef .tc main_arg6) = (m ((c : Thread nD τ).loc main_arg6)) := (prelude_args (W0 m ρ c)).2.2.2.2.2.1
theorem arg7_3 : W3 m ρ c (Proc.devRef .tc main_arg7) = (m ((c : Thread nD τ).loc main_arg7)) := (prelude_args (W0 m ρ c)).2.2.2.2.2.2.1
theorem arg8_3 : W3 m ρ c (Proc.devRef .tc main_arg8) = (m ((c : Thread nD τ).loc main_arg8)) := (prelude_args (W0 m ρ c)).2.2.2.2.2.2.2.1
theorem arg9_3 : W3 m ρ c (Proc.devRef .tc main_arg9) = (m ((c : Thread nD τ).loc main_arg9)) := (prelude_args (W0 m ρ c)).2.2.2.2.2.2.2.2

/-! ## No later segment writes the edge lists, the weights or an argument array -/

theorem same4 : Same (W3 m ρ c) (W4 m ρ c) :=
  (Same.refl (W3 m ρ c)).trans ⟨W4_of_ne m ρ c main_v3 (by decide), W4_of_ne m ρ c main_v6 (by decide), W4_of_ne m ρ c main_v29 (by decide), W4_of_ne m ρ c main_arg3 (by decide), W4_of_ne m ρ c main_arg4 (by decide), W4_of_ne m ρ c main_arg5 (by decide), W4_of_ne m ρ c main_arg6 (by decide), W4_of_ne m ρ c main_arg7 (by decide), W4_of_ne m ρ c main_arg8 (by decide), W4_of_ne m ρ c main_arg9 (by decide)⟩
theorem same5 : Same (W3 m ρ c) (W5 m ρ c) :=
  (same4 m ρ c).trans (host1_same (W4 m ρ c))
theorem same6 : Same (W3 m ρ c) (W6 m ρ c) :=
  (same5 m ρ c).trans ⟨W6_of_ne m ρ c main_v3 (by decide), W6_of_ne m ρ c main_v6 (by decide), W6_of_ne m ρ c main_v29 (by decide), W6_of_ne m ρ c main_arg3 (by decide), W6_of_ne m ρ c main_arg4 (by decide), W6_of_ne m ρ c main_arg5 (by decide), W6_of_ne m ρ c main_arg6 (by decide), W6_of_ne m ρ c main_arg7 (by decide), W6_of_ne m ρ c main_arg8 (by decide), W6_of_ne m ρ c main_arg9 (by decide)⟩
theorem same7 : Same (W3 m ρ c) (W7 m ρ c) :=
  (same6 m ρ c).trans ⟨W7_of_ne m ρ c main_v3 (by decide), W7_of_ne m ρ c main_v6 (by decide), W7_of_ne m ρ c main_v29 (by decide), W7_of_ne m ρ c main_arg3 (by decide), (W7_arr m ρ c 1).trans (((dat2 (V6 m ρ) c).arrAt_in 1 rfl _).trans (A_eq2 (V6 m ρ) c 1)), W7_of_ne m ρ c main_arg5 (by decide), W7_of_ne m ρ c main_arg6 (by decide), W7_of_ne m ρ c main_arg7 (by decide), W7_of_ne m ρ c main_arg8 (by decide), W7_of_ne m ρ c main_arg9 (by decide)⟩
theorem same8 : Same (W3 m ρ c) (W8 m ρ c) :=
  (same7 m ρ c).trans (host3_same (W7 m ρ c))
theorem same9 : Same (W3 m ρ c) (W9 m ρ c) :=
  (same8 m ρ c).trans ⟨W9_of_ne m ρ c main_v3 (by decide), W9_of_ne m ρ c main_v6 (by decide), W9_of_ne m ρ c main_v29 (by decide), W9_of_ne m ρ c main_arg3 (by decide), W9_of_ne m ρ c main_arg4 (by decide), W9_of_ne m ρ c main_arg5 (by decide), W9_of_ne m ρ c main_arg6 (by decide), W9_of_ne m ρ c main_arg7 (by decide), W9_of_ne m ρ c main_arg8 (by decide), W9_of_ne m ρ c main_arg9 (by decide)⟩
theorem same10 : Same (W3 m ρ c) (W10 m ρ c) :=
  (same9 m ρ c).trans ⟨W10_of_ne m ρ c main_v3 (by decide), W10_of_ne m ρ c main_v6 (by decide), W10_of_ne m ρ c main_v29 (by decide), W10_of_ne m ρ c main_arg3 (by decide), W10_of_ne m ρ c main_arg4 (by decide), W10_of_ne m ρ c main_arg5 (by decide), (W10_arr m ρ c 1).trans (((dat4 (V9 m ρ) c).arrAt_in 1 rfl _).trans (A_eq4 (V9 m ρ) c 1)), W10_of_ne m ρ c main_arg7 (by decide), W10_of_ne m ρ c main_arg8 (by decide), W10_of_ne m ρ c main_arg9 (by decide)⟩
theorem same11 : Same (W3 m ρ c) (W11 m ρ c) :=
  (same10 m ρ c).trans (host5_same (W10 m ρ c))
theorem same12 : Same (W3 m ρ c) (W12 m ρ c) :=
  (same11 m ρ c).trans ⟨W12_of_ne m ρ c main_v3 (by decide), W12_of_ne m ρ c main_v6 (by decide), W12_of_ne m ρ c main_v29 (by decide), W12_of_ne m ρ c main_arg3 (by decide), W12_of_ne m ρ c main_arg4 (by decide), W12_of_ne m ρ c main_arg5 (by decide), W12_of_ne m ρ c main_arg6 (by decide), W12_of_ne m ρ c main_arg7 (by decide), W12_of_ne m ρ c main_arg8 (by decide), W12_of_ne m ρ c main_arg9 (by decide)⟩
theorem same13 : Same (W3 m ρ c) (W13 m ρ c) :=
  (same12 m ρ c).trans ⟨W13_of_ne m ρ c main_v3 (by decide), W13_of_ne m ρ c main_v6 (by decide), W13_of_ne m ρ c main_v29 (by decide), W13_of_ne m ρ c main_arg3 (by decide), W13_of_ne m ρ c main_arg4 (by decide), W13_of_ne m ρ c main_arg5 (by decide), W13_of_ne m ρ c main_arg6 (by decide), W13_of_ne m ρ c main_arg7 (by decide), (W13_arr m ρ c 1).trans (((dat6 (V12 m ρ) c).arrAt_in 1 rfl _).trans (A_eq6 (V12 m ρ) c 1)), W13_of_ne m ρ c main_arg9 (by decide)⟩

/-! ## Layer 1 -/

theorem prod1 : W4 m ρ c (Proc.devRef .tc main_v30) = mm (m ((c : Thread nD τ).loc main_arg0)) (m ((c : Thread nD τ).loc main_arg2)) := by
  refine (W4_arr m ρ c 2).trans ((Mat.final0 (V3 m ρ) c).trans ?_)
  show mm (W3 m ρ c (Proc.devRef .tc main_arg0)) (W3 m ρ c (Proc.devRef .tc main_arg2)) = _
  rw [arg0_3, arg2_3]

theorem agg1 : W5 m ρ c (Proc.devRef .tc main_v43) = agg128 (F := Ideal) (dense1 (m ((c : Thread nD τ).loc main_arg0)) (m ((c : Thread nD τ).loc main_arg2))) (srcs (m ((c : Thread nD τ).loc main_arg1))) (dsts (m ((c : Thread nD τ).loc main_arg1))) (coef (F := Ideal) (m ((c : Thread nD τ).loc main_arg1))) := by
  refine (host1_agg (W4 m ρ c)).trans ?_
  rw [prod1, (same4 m ρ c).src, (same4 m ρ c).dst, (same4 m ρ c).coef, src3, dst3, coef3, dense1_eq]

theorem row1 : W5 m ρ c (Proc.devRef .tc main_v44) = shapeCast S1x128 (m ((c : Thread nD τ).loc main_arg3)) shapeCasts_S128_S1x128 := by
  refine (host1_row (W4 m ρ c)).trans ?_
  rw [(same4 m ρ c).a3, arg3_3]

theorem out1 : W6 m ρ c (Proc.devRef .tc main_v45) = layer1 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Act.final1 (V5 m ρ) c).trans ?_)
  show relu (addRow (W5 m ρ c (Proc.devRef .tc main_v43)) (rowVec (W5 m ρ c (Proc.devRef .tc main_v44)))) = _
  rw [agg1, row1, rowVec_reshape]
  exact (act128_eq _ _).symm

/-! ## Layer 2 -/

theorem prod2 : W7 m ρ c (Proc.devRef .tc main_v46) = mm (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Mat.final2 (V6 m ρ) c).trans ?_)
  show mm (W6 m ρ c (Proc.devRef .tc main_v45)) (W6 m ρ c (Proc.devRef .tc main_arg4)) = _
  rw [out1, (same6 m ρ c).a4, arg4_3]

theorem agg2 : W8 m ρ c (Proc.devRef .tc main_v59) = agg128 (F := Ideal) (dense2 (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg4))) (srcs (m ((c : Thread nD τ).loc main_arg1))) (dsts (m ((c : Thread nD τ).loc main_arg1))) (coef (F := Ideal) (m ((c : Thread nD τ).loc main_arg1))) := by
  refine (host3_agg (W7 m ρ c)).trans ?_
  rw [prod2, (same7 m ρ c).src, (same7 m ρ c).dst, (same7 m ρ c).coef, src3, dst3, coef3, dense2_eq]

theorem row2 : W8 m ρ c (Proc.devRef .tc main_v60) = shapeCast S1x128 (m ((c : Thread nD τ).loc main_arg5)) shapeCasts_S128_S1x128 := by
  refine (host3_row (W7 m ρ c)).trans ?_
  rw [(same7 m ρ c).a5, arg5_3]

theorem out2 : W9 m ρ c (Proc.devRef .tc main_v61) = layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) := by
  refine (W9_arr m ρ c 2).trans ((Act.final3 (V8 m ρ) c).trans ?_)
  show relu (addRow (W8 m ρ c (Proc.devRef .tc main_v59)) (rowVec (W8 m ρ c (Proc.devRef .tc main_v60)))) = _
  rw [agg2, row2, rowVec_reshape]
  exact (act128_eq _ _).symm

/-! ## Layer 3 -/

theorem prod3 : W10 m ρ c (Proc.devRef .tc main_v62) = mm (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) := by
  refine (W10_arr m ρ c 2).trans ((Mat.final4 (V9 m ρ) c).trans ?_)
  show mm (W9 m ρ c (Proc.devRef .tc main_v61)) (W9 m ρ c (Proc.devRef .tc main_arg6)) = _
  rw [out2, (same9 m ρ c).a6, arg6_3]

theorem agg3 : W11 m ρ c (Proc.devRef .tc main_v75) = agg64 (F := Ideal) (dense3 (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) (srcs (m ((c : Thread nD τ).loc main_arg1))) (dsts (m ((c : Thread nD τ).loc main_arg1))) (coef (F := Ideal) (m ((c : Thread nD τ).loc main_arg1))) := by
  refine (host5_agg (W10 m ρ c)).trans ?_
  rw [prod3, (same10 m ρ c).src, (same10 m ρ c).dst, (same10 m ρ c).coef, src3, dst3, coef3, dense3_eq]

theorem row3 : W11 m ρ c (Proc.devRef .tc main_v76) = shapeCast S1x64 (m ((c : Thread nD τ).loc main_arg7)) shapeCasts_S64_S1x64 := by
  refine (host5_row (W10 m ρ c)).trans ?_
  rw [(same10 m ρ c).a7, arg7_3]

theorem out3 : W12 m ρ c (Proc.devRef .tc main_v77) = layer3 (F := Ideal) (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7)) := by
  refine (W12_arr m ρ c 2).trans ((Act.final5 (V11 m ρ) c).trans ?_)
  show relu (addRow (W11 m ρ c (Proc.devRef .tc main_v75)) (rowVec (W11 m ρ c (Proc.devRef .tc main_v76)))) = _
  rw [agg3, row3, rowVec_reshape]
  exact (act64_eq _ _).symm

/-! ## Layer 4 -/

theorem prod4 : W13 m ρ c (Proc.devRef .tc main_v78) = mm (layer3 (F := Ideal) (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) (m ((c : Thread nD τ).loc main_arg8)) := by
  refine (W13_arr m ρ c 2).trans ((Mat.final6 (V12 m ρ) c).trans ?_)
  show mm (W12 m ρ c (Proc.devRef .tc main_v77)) (W12 m ρ c (Proc.devRef .tc main_arg8)) = _
  rw [out3, (same12 m ρ c).a8, arg8_3]

theorem agg4 : W14 m ρ c (Proc.devRef .tc main_v91) = agg32 (F := Ideal) (dense4 (layer3 (F := Ideal) (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg1)) (m ((c : Thread nD τ).loc main_arg6)) (m ((c : Thread nD τ).loc main_arg7))) (m ((c : Thread nD τ).loc main_arg8))) (srcs (m ((c : Thread nD τ).loc main_arg1))) (dsts (m ((c : Thread nD τ).loc main_arg1))) (coef (F := Ideal) (m ((c : Thread nD τ).loc main_arg1))) := by
  refine (host7_agg (W13 m ρ c)).trans ?_
  rw [prod4, (same13 m ρ c).src, (same13 m ρ c).dst, (same13 m ρ c).coef, src3, dst3, coef3, dense4_eq]

theorem row4 : W14 m ρ c (Proc.devRef .tc main_v92) = shapeCast S1x32 (m ((c : Thread nD τ).loc main_arg9)) shapeCasts_S32_S1x32 := by
  refine (host7_row (W13 m ρ c)).trans ?_
  rw [(same13 m ρ c).a9, arg9_3]

/-- The result array at the last boundary is the network of the argument arrays. -/
theorem result15 : W15 m ρ c (Proc.devRef .tc main_v93)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W15_arr m ρ c 2).trans ((Act.final7 (V14 m ρ) c).trans ?_)
  show addRow (W14 m ρ c (Proc.devRef .tc main_v91)) (rowVec (W14 m ρ c (Proc.devRef .tc main_v92))) = _
  rw [agg4, row4, rowVec_reshape]
  exact (bias32_eq _ _).symm

end Cert.KernelIdeal.Whole

end
-- ==== Proof.lean ====
/-
  The certificate of a four-layer graph convolution: a program of eight pipelined calls (a matrix product and a
  bias-and-positive-part call per layer, the aggregation over the edges left to host operations between them)
  against a reference of host operations only.

  The three programs run, fault-free, and leave their arguments unchanged: for the two programs with calls this is
  their frame; for the reference it is its run. The ideal pass rewrote nothing, so the idealized program is the
  program's own text read on the extended reals.

  On the extended reals both idealized programs end with the result array at `net` of the argument arrays:
  * the program with calls, because each product call leaves the plain product of its arrays (narrowing the operands
    to a shorter float format is the identity, an entry depends on one row, the fifty row blocks tile the array), each
    bias call leaves `relu (addRow . .)` (the last one `addRow . .`), the host stretches between them are the reference's
    own operations, and no segment writes the edge lists, the edges' weights or an argument;
  * the reference, because its composed term is `net` operation for operation.
  No law of arithmetic beyond reading each operation at an entry joins the two sides, so finiteness of the inputs is
  never used.
-/
import proofs.«173428_j39960375722314_1_alg».proof.Defs
import proofs.«173428_j39960375722314_1_alg».proof.Proof.Gen.Kernel
import proofs.«173428_j39960375722314_1_alg».proof.Proof.Gen.Kernel.Skeleton
import proofs.«173428_j39960375722314_1_alg».proof.Proof.Gen.Kernel.Launch
import proofs.«173428_j39960375722314_1_alg».proof.Proof.Gen.Kernel.Points
import proofs.«173428_j39960375722314_1_alg».proof.Proof.Gen.Kernel.Frame
import proofs.«173428_j39960375722314_1_alg».proof.Proof.Gen.KernelIdeal
import proofs.«173428_j39960375722314_1_alg».proof.Proof.Gen.KernelIdeal.Skeleton
import proofs.«173428_j39960375722314_1_alg».proof.Proof.Gen.KernelIdeal.Launch
import proofs.«173428_j39960375722314_1_alg».proof.Proof.Gen.KernelIdeal.Points
import proofs.«173428_j39960375722314_1_alg».proof.Proof.Gen.KernelIdeal.Frame
import proofs.«173428_j39960375722314_1_alg».proof.Proof.Gen.ReferenceIdeal
import proofs.«173428_j39960375722314_1_alg».proof.Proof.Gen.Pre_finite_inputs
import proofs.«173428_j39960375722314_1_alg».proof.Proof.RefRun
import proofs.«173428_j39960375722314_1_alg».proof.Proof.RefValue
import proofs.«173428_j39960375722314_1_alg».proof.Proof.KRun
import proofs.«173428_j39960375722314_1_alg».proof.Proof.KFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at `net` of the argument arrays, which agree. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result15 m ρ c), (h c).2⟩)
      (Cert.KernelIdeal.Whole.run_named m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.Gcn.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
